-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S10000x128 : Shape := ⟨2, ![10000, 128]⟩
abbrev S10000x1 : Shape := ⟨2, ![10000, 1]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S10000x64 : Shape := ⟨2, ![10000, 64]⟩
abbrev S1x64 : Shape := ⟨2, ![1, 64]⟩
abbrev S1600000x1 : Shape := ⟨2, ![1600000, 1]⟩
abbrev S1600000x64 : Shape := ⟨2, ![1600000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 118
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S100000x128, .f32⟩
  | .hbm, ⟨56, _⟩ => ⟨S100000x64, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x1, .f32⟩
  | .hbm, ⟨67, _⟩ => ⟨S1700000x64, .f32⟩
  | .hbm, ⟨68, _⟩ => ⟨S_, .f32⟩
  | .hbm, ⟨69, _⟩ => ⟨S100000x64, .f32⟩
  | .hbm, ⟨70, _⟩ => ⟨S1700000x1, .i32⟩
  | .hbm, ⟨71, _⟩ => ⟨S100000x64, .f32⟩
  | .hbm, ⟨72, _⟩ => ⟨S100000x64, .f32⟩
  | .hbm, ⟨73, _⟩ => ⟨S1x1600000, .i32⟩
  | .hbm, ⟨74, _⟩ => ⟨S1600000, .i32⟩
  | .hbm, ⟨75, _⟩ => ⟨S1x1600000, .i32⟩
  | .hbm, ⟨76, _⟩ => ⟨S1600000, .i32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S1600000x1, .f32⟩
  | .hbm, ⟨96, _⟩ => ⟨S1600000, .f32⟩
  | .hbm, ⟨97, _⟩ => ⟨S_, .f32⟩
  | .hbm, ⟨98, _⟩ => ⟨S100000, .f32⟩
  | .hbm, ⟨99, _⟩ => ⟨S1600000x1, .i32⟩
  | .hbm, ⟨100, _⟩ => ⟨S100000, .f32⟩
  | .hbm, ⟨101, _⟩ => ⟨S_, .f32⟩
  | .hbm, ⟨102, _⟩ => ⟨S1600000, .f32⟩
  | .hbm, ⟨103, _⟩ => ⟨S_, .f32⟩
  | .hbm, ⟨104, _⟩ => ⟨S100000, .f32⟩
  | .hbm, ⟨105, _⟩ => ⟨S1600000x1, .i32⟩
  | .hbm, ⟨106, _⟩ => ⟨S100000, .f32⟩
  | .hbm, ⟨107, _⟩ => ⟨S_, .f32⟩
  | .hbm, ⟨108, _⟩ => ⟨S100000, .f32⟩
  | .hbm, ⟨109, _⟩ => ⟨S100000, .i1⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000, .f32⟩
  | .hbm, ⟨114, _⟩ => ⟨S_, .f32⟩
  | .hbm, ⟨115, _⟩ => ⟨S_, .f32⟩
  | .hbm, ⟨116, _⟩ => ⟨S100000, .f32⟩
  | .hbm, ⟨117, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S10000x64, .f32⟩
  | .local _ .vmem, ⟨26, _⟩ => ⟨S10000x64, .f32⟩
  | .local _ .vmem, ⟨27, _⟩ => ⟨S5000x64, .f32⟩
  | .local _ .vmem, ⟨28, _⟩ => ⟨S5000x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | .local _ .vmem, ⟨32, _⟩ => ⟨S8000x64, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | .local _ .vmem, ⟨36, _⟩ => ⟨S8000x1, .f32⟩
  | .local _ .vmem, ⟨37, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_10 : Ref sig .tc := ⟨.hbm, 77, rfl⟩
abbrev main_v59 : Ref sig .tc := ⟨.hbm, 78, rfl⟩
abbrev main_v60 : Ref sig .tc := ⟨.hbm, 79, rfl⟩
abbrev main_c_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_12 : Ref sig .tc := ⟨.hbm, 86, rfl⟩
abbrev main_v66 : Ref sig .tc := ⟨.hbm, 87, rfl⟩
abbrev main_v67 : Ref sig .tc := ⟨.hbm, 88, rfl⟩
abbrev main_c_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_14 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_15 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_17 : Ref sig .tc := ⟨.hbm, 107, rfl⟩
abbrev main_v82 : Ref sig .tc := ⟨.hbm, 108, rfl⟩
abbrev main_v83 : Ref sig .tc := ⟨.hbm, 109, rfl⟩
abbrev main_cst_18 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_19 : Ref sig .tc := ⟨.hbm, 114, rfl⟩
abbrev main_call0_v0 : Ref sig .tc := ⟨.hbm, 115, rfl⟩
abbrev main_call0_v1 : Ref sig .tc := ⟨.hbm, 116, rfl⟩
abbrev main_v87 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1700000_S1700000x1 : S1700000.ShapeCasts S1700000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S1600000x1_S1600000 : S1600000x1.ShapeCasts S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1700000x64.size a
  hwx4_0 : ∀ i : grid4.Coords, EltTy.bits .f32 = 32 ∨ (Rect.block (s := S1700000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1700000x64.size a
  hwx4_2 : ∀ i : grid4.Coords, EltTy.bits .f32 = 32 ∨ (Rect.block (s := S1700000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S1600000x64.size a
  hwx6_0 : ∀ i : grid6.Coords, EltTy.bits .f32 = 32 ∨ (Rect.block (s := S1600000x64) S8000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x64.size a ≤ S1600000x64.size a
  hwx6_1 : ∀ i : grid6.Coords, EltTy.bits .f32 = 32 ∨ (Rect.block (s := S1600000x64) S8000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x1.size a ≤ S1600000x1.size a
  hwx6_2 : ∀ i : grid6.Coords, EltTy.bits .f32 = 32 ∨ (Rect.block (s := S1600000x1) S8000x1.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v53) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v54) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v65) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S8000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v73) S8000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S100000, .f32⟩
  | 20 => ⟨S100000x128, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000x128, .f32⟩
  | 49 => ⟨S1700000x1, .f32⟩
  | 50 => ⟨S1700000x128, .f32⟩
  | 51 => ⟨S1700000x128, .f32⟩
  | 52 => ⟨S_, .f32⟩
  | 53 => ⟨S100000x128, .f32⟩
  | 54 => ⟨S1700000x1, .i32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x64, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S1700000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x64, .f32⟩
  | 91 => ⟨S1700000x1, .f32⟩
  | 92 => ⟨S1700000x64, .f32⟩
  | 93 => ⟨S1700000x64, .f32⟩
  | 94 => ⟨S_, .f32⟩
  | 95 => ⟨S100000x64, .f32⟩
  | 96 => ⟨S1700000x1, .i32⟩
  | 97 => ⟨S100000x64, .f32⟩
  | 98 => ⟨S1x64, .f32⟩
  | 99 => ⟨S100000x64, .f32⟩
  | 100 => ⟨S100000x64, .f32⟩
  | 101 => ⟨S1x1600000, .i32⟩
  | 102 => ⟨S1600000, .i32⟩
  | 103 => ⟨S1x1600000, .i32⟩
  | 104 => ⟨S1600000, .i32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S1600000x64, .f32⟩
  | 124 => ⟨S_, .f32⟩
  | 125 => ⟨S1600000, .f32⟩
  | 126 => ⟨S1600000, .f32⟩
  | 127 => ⟨S1600000, .f32⟩
  | _ => ⟨S100000x128, .f32⟩

abbrev hbmTy0_1 (i : Nat) : BufTy := match i % 128 with
  | 0 => ⟨S_, .f32⟩
  | 1 => ⟨S1600000, .f32⟩
  | 2 => ⟨S1600000, .f32⟩
  | 3 => ⟨S_, .f32⟩
  | 4 => ⟨S1600000, .f32⟩
  | 5 => ⟨S1600000, .f32⟩
  | 6 => ⟨S_, .f32⟩
  | 7 => ⟨S1600000, .f32⟩
  | 8 => ⟨S1600000, .f32⟩
  | 9 => ⟨S1600000, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_14 : Ref sig .tc := ⟨.hbm, 105, rfl⟩
abbrev main_v81 : Ref sig .tc := ⟨.hbm, 106, rfl⟩
abbrev main_v82 : Ref sig .tc := ⟨.hbm, 107, rfl⟩
abbrev main_c_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_16 : Ref sig .tc := ⟨.hbm, 114, rfl⟩
abbrev main_v88 : Ref sig .tc := ⟨.hbm, 115, rfl⟩
abbrev main_v89 : Ref sig .tc := ⟨.hbm, 116, rfl⟩
abbrev main_c_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩
abbrev main_cst_20 : Ref sig .tc := ⟨.hbm, 131, rfl⟩
abbrev main_v101 : Ref sig .tc := ⟨.hbm, 132, rfl⟩
abbrev main_v102 : Ref sig .tc := ⟨.hbm, 133, rfl⟩
abbrev main_cst_21 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_22 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_23 : Ref sig .tc := ⟨.hbm, 143, rfl⟩
abbrev main_v110 : Ref sig .tc := ⟨.hbm, 144, rfl⟩
abbrev main_cst_24 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_25 : Ref sig .tc := ⟨.hbm, 149, rfl⟩
abbrev main_v114 : Ref sig .tc := ⟨.hbm, 150, rfl⟩
abbrev main_v115 : Ref sig .tc := ⟨.hbm, 151, rfl⟩
abbrev main_cst_26 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_27 : Ref sig .tc := ⟨.hbm, 156, rfl⟩
abbrev main_call1_v0 : Ref sig .tc := ⟨.hbm, 157, rfl⟩
abbrev main_call1_v1 : Ref sig .tc := ⟨.hbm, 158, rfl⟩
abbrev main_v119 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  scatter_S100000_S1600000x1_S1600000_n_0_0_1_wf : ScatterDims.WF S100000 S1600000x1 S1600000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.KRun.lean ====
/-
  The idealized kernel's run with its result named.

  The program is fifteen segments: stretches of host operations and seven pipelined kernel launches. Every weakly fair
  execution terminates without a fault, and in the final state each unscoped buffer holds the contents the fold of the
  segments over the launch memory gives it; read at the result buffer this names the result, and at the six argument
  buffers it is the launch memory again.
-/
import proofs.«141969_j51539607552044_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument buffers as launched. -/
theorem run : θ_run defs (onTc (τ := τ) (main (F := F))) ⟨m, fun _ => 0, ρ⟩ (fun r => ∀ c : Dev nD,
      r.2.mem ((c.tc : Thread nD τ).loc main_v87) = W15 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v87 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c)⟩)

end Cert.KernelIdeal.KRun

end
-- ==== Proof.Keeps.lean ====
/-
  Buffers that outlive a segment.

  The program computes the edge lists and the edge weights once, before the first kernel launch, and reads them again
  in later stretches of host operations; the weights and biases are read by launches in the middle of the program. A
  stretch of host operations changes only the buffers its operations write, and a launch only its result array, so
  each of these buffers still holds, where it is read, what it held where it was written: the arguments the launch
  memory, the edge lists and weights the contents the first stretch gave them.
-/
import proofs.«141969_j51539607552044_2_alg».proof.Proof.Gen.KernelIdeal.Frame

set_option maxRecDepth 16384

noncomputable section

namespace Cert.KernelIdeal.Keeps

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Closes `StableHlo.after ops W b = W b` for a stretch none of whose operations writes `b`. -/
macro "host_keeps" : tactic => `(tactic| (
  refine StableHlo.after_of_forall_not_mem _ _ (List.forall_iff_forall_mem.mp ?_)
  simp only [hostOps0, hostOps1, hostOps2, hostOps4, hostOps5, hostOps6, hostOps7, hostOps7_1,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments, from the launch memory -/

theorem arg0_W1 (c : Dev nD) : W1 m ρ c (Proc.devRef .tc main_arg0) = m ((c : Thread nD τ).loc main_arg0) :=
  (by host_keeps : W1 m ρ c (Proc.devRef .tc main_arg0) = W0 m ρ c (Proc.devRef .tc main_arg0)).trans rfl
theorem arg2_W1 (c : Dev nD) : W1 m ρ c (Proc.devRef .tc main_arg2) = m ((c : Thread nD τ).loc main_arg2) :=
  (by host_keeps : W1 m ρ c (Proc.devRef .tc main_arg2) = W0 m ρ c (Proc.devRef .tc main_arg2)).trans rfl

/-- An argument no launch up to the third writes and no stretch up to the third writes: at the third stretch's end. -/
theorem arg1_W5 (c : Dev nD) : W5 m ρ c (Proc.devRef .tc main_arg1) = m ((c : Thread nD τ).loc main_arg1) :=
  (by host_keeps : W5 m ρ c (Proc.devRef .tc main_arg1) = W4 m ρ c (Proc.devRef .tc main_arg1)).trans <|
  (W4_of_ne m ρ c main_arg1 (by decide)).trans <|
  (by host_keeps : W3 m ρ c (Proc.devRef .tc main_arg1) = W2 m ρ c (Proc.devRef .tc main_arg1)).trans <|
  (W2_of_ne m ρ c main_arg1 (by decide)).trans <|
  (by host_keeps : W1 m ρ c (Proc.devRef .tc main_arg1) = W0 m ρ c (Proc.devRef .tc main_arg1)).trans rfl
theorem arg3_W5 (c : Dev nD) : W5 m ρ c (Proc.devRef .tc main_arg3) = m ((c : Thread nD τ).loc main_arg3) :=
  (by host_keeps : W5 m ρ c (Proc.devRef .tc main_arg3) = W4 m ρ c (Proc.devRef .tc main_arg3)).trans <|
  (W4_of_ne m ρ c main_arg3 (by decide)).trans <|
  (by host_keeps : W3 m ρ c (Proc.devRef .tc main_arg3) = W2 m ρ c (Proc.devRef .tc main_arg3)).trans <|
  (W2_of_ne m ρ c main_arg3 (by decide)).trans <|
  (by host_keeps : W1 m ρ c (Proc.devRef .tc main_arg3) = W0 m ρ c (Proc.devRef .tc main_arg3)).trans rfl
theorem arg4_W5 (c : Dev nD) : W5 m ρ c (Proc.devRef .tc main_arg4) = m ((c : Thread nD τ).loc main_arg4) :=
  (by host_keeps : W5 m ρ c (Proc.devRef .tc main_arg4) = W4 m ρ c (Proc.devRef .tc main_arg4)).trans <|
  (W4_of_ne m ρ c main_arg4 (by decide)).trans <|
  (by host_keeps : W3 m ρ c (Proc.devRef .tc main_arg4) = W2 m ρ c (Proc.devRef .tc main_arg4)).trans <|
  (W2_of_ne m ρ c main_arg4 (by decide)).trans <|
  (by host_keeps : W1 m ρ c (Proc.devRef .tc main_arg4) = W0 m ρ c (Proc.devRef .tc main_arg4)).trans rfl
theorem arg5_W5 (c : Dev nD) : W5 m ρ c (Proc.devRef .tc main_arg5) = m ((c : Thread nD τ).loc main_arg5) :=
  (by host_keeps : W5 m ρ c (Proc.devRef .tc main_arg5) = W4 m ρ c (Proc.devRef .tc main_arg5)).trans <|
  (W4_of_ne m ρ c main_arg5 (by decide)).trans <|
  (by host_keeps : W3 m ρ c (Proc.devRef .tc main_arg5) = W2 m ρ c (Proc.devRef .tc main_arg5)).trans <|
  (W2_of_ne m ρ c main_arg5 (by decide)).trans <|
  (by host_keeps : W1 m ρ c (Proc.devRef .tc main_arg5) = W0 m ρ c (Proc.devRef .tc main_arg5)).trans rfl

/-- The second layer's weights, where the fourth launch reads them. -/
theorem arg4_W6 (c : Dev nD) : W6 m ρ c (Proc.devRef .tc main_arg4) = m ((c : Thread nD τ).loc main_arg4) :=
  (W6_of_ne m ρ c main_arg4 (by decide)).trans (arg4_W5 m ρ c)

/-- The second bias, where the sixth launch reads it. -/
theorem arg5_W10 (c : Dev nD) : W10 m ρ c (Proc.devRef .tc main_arg5) = m ((c : Thread nD τ).loc main_arg5) :=
  (by host_keeps : W10 m ρ c (Proc.devRef .tc main_arg5) = W9 m ρ c (Proc.devRef .tc main_arg5)).trans <|
  (W9_of_ne m ρ c main_arg5 (by decide)).trans <|
  (by host_keeps : W8 m ρ c (Proc.devRef .tc main_arg5) = W7 m ρ c (Proc.devRef .tc main_arg5)).trans <|
  (W7_of_ne m ρ c main_arg5 (by decide)).trans <|
  (W6_of_ne m ρ c main_arg5 (by decide)).trans (arg5_W5 m ρ c)

/-- The edge list, where the decoder's stretch reads it again. -/
theorem arg1_W11 (c : Dev nD) : W11 m ρ c (Proc.devRef .tc main_arg1) = m ((c : Thread nD τ).loc main_arg1) :=
  (W11_of_ne m ρ c main_arg1 (by decide)).trans <|
  (by host_keeps : W10 m ρ c (Proc.devRef .tc main_arg1) = W9 m ρ c (Proc.devRef .tc main_arg1)).trans <|
  (W9_of_ne m ρ c main_arg1 (by decide)).trans <|
  (by host_keeps : W8 m ρ c (Proc.devRef .tc main_arg1) = W7 m ρ c (Proc.devRef .tc main_arg1)).trans <|
  (W7_of_ne m ρ c main_arg1 (by decide)).trans <|
  (W6_of_ne m ρ c main_arg1 (by decide)).trans (arg1_W5 m ρ c)

/-! ## The source list, the target list and the edge weights, from the first stretch -/

theorem v3_W2 (c : Dev nD) : W2 m ρ c (Proc.devRef .tc main_v3) = W1 m ρ c (Proc.devRef .tc main_v3) :=
  W2_of_ne m ρ c main_v3 (by decide)
theorem v26_W2 (c : Dev nD) : W2 m ρ c (Proc.devRef .tc main_v26) = W1 m ρ c (Proc.devRef .tc main_v26) :=
  W2_of_ne m ρ c main_v26 (by decide)
theorem v6_W4 (c : Dev nD) : W4 m ρ c (Proc.devRef .tc main_v6) = W1 m ρ c (Proc.devRef .tc main_v6) :=
  (W4_of_ne m ρ c main_v6 (by decide)).trans <|
  (by host_keeps : W3 m ρ c (Proc.devRef .tc main_v6) = W2 m ρ c (Proc.devRef .tc main_v6)).trans <|
  W2_of_ne m ρ c main_v6 (by decide)
theorem v3_W7 (c : Dev nD) : W7 m ρ c (Proc.devRef .tc main_v3) = W1 m ρ c (Proc.devRef .tc main_v3) :=
  (W7_of_ne m ρ c main_v3 (by decide)).trans <|
  (W6_of_ne m ρ c main_v3 (by decide)).trans <|
  (by host_keeps : W5 m ρ c (Proc.devRef .tc main_v3) = W4 m ρ c (Proc.devRef .tc main_v3)).trans <|
  (W4_of_ne m ρ c main_v3 (by decide)).trans <|
  (by host_keeps : W3 m ρ c (Proc.devRef .tc main_v3) = W2 m ρ c (Proc.devRef .tc main_v3)).trans (v3_W2 m ρ c)
theorem v26_W7 (c : Dev nD) : W7 m ρ c (Proc.devRef .tc main_v26) = W1 m ρ c (Proc.devRef .tc main_v26) :=
  (W7_of_ne m ρ c main_v26 (by decide)).trans <|
  (W6_of_ne m ρ c main_v26 (by decide)).trans <|
  (by host_keeps : W5 m ρ c (Proc.devRef .tc main_v26) = W4 m ρ c (Proc.devRef .tc main_v26)).trans <|
  (W4_of_ne m ρ c main_v26 (by decide)).trans <|
  (by host_keeps : W3 m ρ c (Proc.devRef .tc main_v26) = W2 m ρ c (Proc.devRef .tc main_v26)).trans (v26_W2 m ρ c)
theorem v6_W9 (c : Dev nD) : W9 m ρ c (Proc.devRef .tc main_v6) = W1 m ρ c (Proc.devRef .tc main_v6) :=
  (W9_of_ne m ρ c main_v6 (by decide)).trans <|
  (by host_keeps : W8 m ρ c (Proc.devRef .tc main_v6) = W7 m ρ c (Proc.devRef .tc main_v6)).trans <|
  (W7_of_ne m ρ c main_v6 (by decide)).trans <|
  (W6_of_ne m ρ c main_v6 (by decide)).trans <|
  (by host_keeps : W5 m ρ c (Proc.devRef .tc main_v6) = W4 m ρ c (Proc.devRef .tc main_v6)).trans (v6_W4 m ρ c)

/-- The decoder's source list, across the last launch. -/
theorem v56_W13 (c : Dev nD) : W13 m ρ c (Proc.devRef .tc main_v56) = W12 m ρ c (Proc.devRef .tc main_v56) :=
  W13_of_ne m ρ c main_v56 (by decide)

end Cert.KernelIdeal.Keeps

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«141969_j51539607552044_2_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.Spec.lean ====
/-
  The stages of a two-layer graph convolution with an inner-product edge decoder, entry by entry, over the extended
  reals.

  A layer multiplies the node features by a weight matrix, gathers the product along the edges, scales each gathered
  row by the edge's normalisation, sums the rows arriving at each node and adds a bias; the first layer ends with
  max(·, 0). The decoder takes, per edge, the inner product s of the two end points' rows and returns
  −log(1/(1 + e^(−s)) + ε). The gathers and the sums over edges are the same host operations in both programs, so only
  the dense stages are spelt here, each as a function of whole arrays read at an index.
-/
import proofs.«141969_j51539607552044_2_alg».proof.Proof.LibDenseProduct

noncomputable section

namespace Cert.Spec

open Idealize.ShloMosaic Idealize.ShloMosaic.ValueIdx

variable {M K N : Nat}

/-- Features times weights: entry (a, b) is ∑ c, X(a, c) · W(c, b). -/
abbrev lin (X : FVec Ideal ⟨2, ![M, K]⟩ .f32) (W : FVec Ideal ⟨2, ![K, N]⟩ .f32) : FVec Ideal ⟨2, ![M, N]⟩ .f32 :=
  Cert.LibDenseProduct.mm X W

/-- Each row of H scaled by its own factor, kept as an [M, 1] column. -/
def scaleRows (H : (⟨2, ![M, N]⟩ : Shape).Idx → EReal) (col : (⟨2, ![M, 1]⟩ : Shape).Idx → EReal) :
    (⟨2, ![M, N]⟩ : Shape).Idx → EReal :=
  fun i => H i * col (ix2 (i 0) (0 : Fin 1))

/-- A bias added to every row. -/
def addBias (A : (⟨2, ![M, N]⟩ : Shape).Idx → EReal) (b : (⟨1, ![N]⟩ : Shape).Idx → EReal) :
    (⟨2, ![M, N]⟩ : Shape).Idx → EReal :=
  fun i => A i + b (ix1 (i 1))

/-- A bias added to every row, then the maximum with the literal zero. -/
def addBiasRelu (A : (⟨2, ![M, N]⟩ : Shape).Idx → EReal) (b : (⟨1, ![N]⟩ : Shape).Idx → EReal) :
    (⟨2, ![M, N]⟩ : Shape).Idx → EReal :=
  fun i => max (A i + b (ix1 (i 1))) (Ideal.ofBits .f32 0x00000000#32)

/-- The decoder's error of one edge, kept as an [M, 1] column: with s the inner product of the two rows,
    0 − log(logistic s + ε), the sum started from the literal zero and ε the literal 1e-15. -/
def edgeError (zr zc : (⟨2, ![M, N]⟩ : Shape).Idx → EReal) : (⟨2, ![M, 1]⟩ : Shape).Idx → EReal :=
  fun i => Ideal.ofBits .f32 0x00000000#32
    - Ideal.log (Ideal.logistic (∑ k : Fin N, zr (ix2 (i 0) k) * zc (ix2 (i 0) k)) + Ideal.ofBits .f32 0x26901D7D#32)

end Cert.Spec

end
-- ==== Proof.Region0.lean ====
/-
  The first dense product, block by block.

  The grid has 20 points; point t multiplies rows 5000·t … 5000·t + 4999 of the left array by the whole weight matrix and writes
  the same rows of the result. A row of a product reads that row of the left factor only, so each written block is a
  block of rows of the one product of the whole arrays, and the 20 blocks cover all 100000 rows.
-/
import proofs.«141969_j51539607552044_2_alg».proof.Proof.Gen.KernelIdeal.Frame
import proofs.«141969_j51539607552044_2_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left array's and the result's blocks are at row block t, the weights' at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value is the product of its two loaded blocks: the roundings to the narrower format are the
    identity on extended reals and the accumulator is zero. -/
theorem pay_eq (x0 : Vec Ideal S5000x128 .f32) (x1 : Vec Ideal S128x128 .f32) : k0_pay1 x0 x1 = Spec.lin x0 x1 :=
  Cert.LibDenseProduct.matmul_plain_zero_eq none x0 x1

/-- One entry of the stored block, for a left block that holds rows of X and a right block that is W. -/
theorem pay_apply (X : FVec Ideal S100000x128 .f32) (W : FVec Ideal S128x128 .f32) (x0 : Vec Ideal S5000x128 .f32)
    (x1 : Vec Ideal S128x128 .f32) (j : S5000x128.Idx) (i : S100000x128.Idx) (hW : x1 = W)
    (hx : ∀ q : Fin 128, x0 (ix2 (j 0) q) = X (ix2 (i 0) q)) (h1 : (j 1 : Fin 128) = i 1) :
    k0_pay1 x0 x1 j = Spec.lin X W i := by
  rw [pay_eq, hW]
  exact Cert.LibDenseProduct.mm_rows X W x0 j i hx h1

/-- What the region leaves in its result array: the product of the arrays it finds. -/
abbrev G (c : Dev nD) : S100000x128.Idx → EReal := Spec.lin (V c main_arg0) (V c main_arg2)

/-- What point t writes back is block t of that product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine pay_apply (V c main_arg0) (V c main_arg2) (iblk0 V c 0 t) (iblk0 V c 1 t) j (((cfg0.win 2).blk t).view.emb j) ?_ ?_ ?_
  · funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · intro q
    show V c main_arg0 (((cfg0.win 0).blk t).view.emb (ix2 (j 0) q)) = V c main_arg0 (ix2 ((((cfg0.win 2).blk t).view.emb j) 0) q)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * q.val = q.val; omega
  · apply Fin.ext
    show (j 1).val = win0_2.index t (1 : Fin 2) * 128 + 1 * (j 1).val
    omega

/-- An index of the result array is in point t's block iff its row is one of the block's. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every row is in the block of the point numbered by its row block. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The region's result array, after the region, is the product of the arrays it found at its entry. -/
theorem final (c : Dev nD) : (dat0 V c).arrAt 2 cfg0.N = G V c :=
  (dat0 V c).arrAt_eq_of_cover 2 (G V c) (fun t _ => flushed_eq V c t) (cover)

end Cert.KernelIdeal.R0

end
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.Region1.lean ====
/-
  The per-edge weighting of the first layer, block by block.

  The grid has 170 points; point t takes rows 10000·t … 10000·t + 9999 of the gathered features and the same rows of
  the [1700000, 1] column of edge weights, broadcasts the column across the 128 lanes and multiplies. Entry (p, q) of a
  written block is the feature at (p, q) times the weight of row p, so each block is a block of rows of one array,
  every row scaled by its own weight, and the 170 blocks cover all 1700000 rows.
-/
import proofs.«141969_j51539607552044_2_alg».proof.Proof.Gen.KernelIdeal.Frame
import proofs.«141969_j51539607552044_2_alg».proof.Proof.Spec
import proofs.«141969_j51539607552044_2_alg».proof.Proof.LibRowStat
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three windows' blocks are at row block t. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- One entry of the stored block: the feature times its row's weight. -/
theorem pay_apply (H : S1700000x128.Idx → EReal) (col : S1700000x1.Idx → EReal)
    (x0 : Vec Ideal S10000x128 .f32) (x1 : Vec Ideal S10000x1 .f32) (p : Fin 10000) (q : Fin 128) (i : S1700000x128.Idx)
    (h0 : x0 (ix2 p q) = H i) (h1 : x1 (ix2 p (0 : Fin 1)) = col (ix2 (i 0) (0 : Fin 1))) :
    k1_pay1 x0 x1 (ix2 p q) = Spec.scaleRows H col i := by
  unfold k1_pay1 Spec.scaleRows
  show (shapeCast S10000x128 x0 shapeCasts_S10000x128_S10000x128) (ix2 p q)
      * (broadcastTo S10000x128 (shapeCast S10000x1 x1 shapeCasts_S10000x1_S10000x1) broadcasts_S10000x1_S10000x128) (ix2 p q)
      = H i * col (ix2 (i 0) (0 : Fin 1))
  rw [shapeCast_self, shapeCast_self, Cert.LibRowStat.broadcastTo_a1_ab_apply, h0, h1]

/-- What the region leaves in its result array: the rows it finds, each scaled by its weight. -/
abbrev G (c : Dev nD) : S1700000x128.Idx → EReal := Spec.scaleRows (V c main_v34) (V c main_v35)

/-- What point t writes back is block t of that array. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e0, e1, e2, e3, e4, e5⟩ := idx_facts t
  funext j
  rw [eq_ix2 j]
  refine pay_apply (V c main_v34) (V c main_v35) (iblk1 V c 0 t) (iblk1 V c 1 t) (j 0) (j 1)
    (((cfg1.win 2).blk t).view.emb (ix2 (j 0) (j 1))) ?_ ?_
  · show V c main_v34 (((cfg1.win 0).blk t).view.emb (ix2 (j 0) (j 1))) = V c main_v34 (((cfg1.win 2).blk t).view.emb (ix2 (j 0) (j 1)))
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show V c main_v35 (((cfg1.win 1).blk t).view.emb (ix2 (j 0) (0 : Fin 1))) = V c main_v35 (ix2 ((((cfg1.win 2).blk t).view.emb (ix2 (j 0) (j 1))) 0) (0 : Fin 1))
    refine congrArg _ (funext fun a => Fin.ext ?_)
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega

/-- An index of the result array is in point t's block iff its row is one of the block's. -/
theorem mem_blk (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v36).slice (win1_2.rect t)).set ↔ _
  rw [View.set_slice_whole, Rect.mem_set_unit]
  exact Iff.rfl

/-- Every row is in the block of the point numbered by its row block. -/
theorem cover (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have hN : cfg1.N = 170 := N_1
  refine ⟨⟨(i 0).val / 10000, by rw [hN]; omega⟩, flush1_2 _, ?_⟩
  rw [mem_blk]
  obtain ⟨e0, e1, e2, e3, e4, e5⟩ := idx_facts ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ (i 0).val ∧ (i 0).val < (i 0).val / 10000 * 10000 + 10000; omega
  | ⟨1, _⟩ => show win1_2.index _ (1 : Fin 2) * 128 ≤ (i 1).val ∧ (i 1).val < win1_2.index _ (1 : Fin 2) * 128 + 128; rw [e5]; omega

/-- The region's result array, after the region, is the array of scaled rows of what it found at its entry. -/
theorem final (c : Dev nD) : (dat1 V c).arrAt 2 cfg1.N = G V c :=
  (dat1 V c).arrAt_eq_of_cover 2 (G V c) (fun t _ => flushed_eq V c t) (cover)

end Cert.KernelIdeal.R1

end
-- ==== Proof.Region2.lean ====
/-
  The bias and the maximum with zero that end the first layer, block by block.

  The grid has 20 points; point t takes rows 5000·t … 5000·t + 4999 of the aggregated messages and the whole bias
  vector, lays the vector out as a row, repeats it down the block, adds, and takes the maximum with the literal zero.
  Entry (p, q) of a written block is max(A(p, q) + b(q), 0), so each block is a block of rows of one array and the 20
  blocks cover all 100000 rows.
-/
import proofs.«141969_j51539607552044_2_alg».proof.Proof.Gen.KernelIdeal.Frame
import proofs.«141969_j51539607552044_2_alg».proof.Proof.Spec
import Idealize.ShloMosaic.Lib.ValueLayout
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: the messages' and the result's blocks are at row block t, the bias at the origin. -/
theorem idx_facts : ∀ t : Fin cfg2.N,
    win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- One entry of the stored block: the message plus the bias of its lane, or zero if that is larger. -/
theorem pay_apply (A : S100000x128.Idx → EReal) (b : S128.Idx → EReal)
    (x0 : Vec Ideal S5000x128 .f32) (x1 : Vec Ideal S128 .f32) (p : Fin 5000) (q : Fin 128) (i : S100000x128.Idx)
    (h0 : x0 (ix2 p q) = A i) (h1 : x1 (ix1 q) = b (ix1 (i 1))) :
    k2_pay1 x0 x1 (ix2 p q) = Spec.addBiasRelu A b i := by
  unfold k2_pay1 Spec.addBiasRelu
  show max ((shapeCast S5000x128 x0 shapeCasts_S5000x128_S5000x128) (ix2 p q)
      + (broadcastTo S5000x128 (shapeCast S1x128 x1 shapeCasts_S128_S1x128) broadcasts_S1x128_S5000x128) (ix2 p q))
        (Ideal.ofBits .f32 0x00000000#32)
      = max (A i + b (ix1 (i 1))) (Ideal.ofBits .f32 0x00000000#32)
  rw [shapeCast_self, broadcastTo_1b_ab_apply, shapeCast_a_1a_apply, h0, h1]

/-- What the region leaves in its result array. -/
abbrev G (c : Dev nD) : S100000x128.Idx → EReal := Spec.addBiasRelu (V c main_v39) (V c main_arg3)

/-- What point t writes back is block t of that array. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128) hz1]
  obtain ⟨e0, e1, e2, e4, e5⟩ := idx_facts t
  funext j
  rw [eq_ix2 j]
  refine pay_apply (V c main_v39) (V c main_arg3) (iblk2 V c 0 t) (iblk2 V c 1 t) (j 0) (j 1)
    (((cfg2.win 2).blk t).view.emb (ix2 (j 0) (j 1))) ?_ ?_
  · show V c main_v39 (((cfg2.win 0).blk t).view.emb (ix2 (j 0) (j 1))) = V c main_v39 (((cfg2.win 2).blk t).view.emb (ix2 (j 0) (j 1)))
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  · show V c main_arg3 (((cfg2.win 1).blk t).view.emb (ix1 (j 1))) = V c main_arg3 (ix1 ((((cfg2.win 2).blk t).view.emb (ix2 (j 0) (j 1))) 1))
    refine congrArg _ (funext fun a => Fin.ext ?_)
    match a with
    | ⟨0, _⟩ => show win2_1.index t (0 : Fin 1) * 128 + 1 * (j 1).val = win2_2.index t (1 : Fin 2) * 128 + 1 * (j 1).val; omega

/-- An index of the result array is in point t's block iff its row is one of the block's. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v40).slice (win2_2.rect t)).set ↔ _
  rw [View.set_slice_whole, Rect.mem_set_unit]
  exact Iff.rfl

/-- Every row is in the block of the point numbered by its row block. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_2 _, ?_⟩
  rw [mem_blk]
  obtain ⟨e0, e1, e2, e4, e5⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e5]; omega

/-- The region's result array, after the region. -/
theorem final (c : Dev nD) : (dat2 V c).arrAt 2 cfg2.N = G V c :=
  (dat2 V c).arrAt_eq_of_cover 2 (G V c) (fun t _ => flushed_eq V c t) (cover)

end Cert.KernelIdeal.R2

end
-- ==== Proof.Region3.lean ====
/-
  The second dense product, block by block.

  The grid has 20 points; point t multiplies rows 5000·t … 5000·t + 4999 of the left array by the whole weight matrix and writes
  the same rows of the result. A row of a product reads that row of the left factor only, so each written block is a
  block of rows of the one product of the whole arrays, and the 20 blocks cover all 100000 rows.
-/
import proofs.«141969_j51539607552044_2_alg».proof.Proof.Gen.KernelIdeal.Frame
import proofs.«141969_j51539607552044_2_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left array's and the result's blocks are at row block t, the weights' at the origin. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's stored value is the product of its two loaded blocks: the roundings to the narrower format are the
    identity on extended reals and the accumulator is zero. -/
theorem pay_eq (x0 : Vec Ideal S5000x128 .f32) (x1 : Vec Ideal S128x64 .f32) : k3_pay1 x0 x1 = Spec.lin x0 x1 := by
  unfold k3_pay1
  simp only [shapeCast_self]
  exact Cert.LibDenseProduct.matmul_plain_zero_eq none x0 x1

/-- One entry of the stored block, for a left block that holds rows of X and a right block that is W. -/
theorem pay_apply (X : FVec Ideal S100000x128 .f32) (W : FVec Ideal S128x64 .f32) (x0 : Vec Ideal S5000x128 .f32)
    (x1 : Vec Ideal S128x64 .f32) (j : S5000x64.Idx) (i : S100000x64.Idx) (hW : x1 = W)
    (hx : ∀ q : Fin 128, x0 (ix2 (j 0) q) = X (ix2 (i 0) q)) (h1 : (j 1 : Fin 64) = i 1) :
    k3_pay1 x0 x1 j = Spec.lin X W i := by
  rw [pay_eq, hW]
  exact Cert.LibDenseProduct.mm_rows X W x0 j i hx h1

/-- What the region leaves in its result array: the product of the arrays it finds. -/
abbrev G (c : Dev nD) : S100000x64.Idx → EReal := Spec.lin (V c main_v40) (V c main_arg4)

/-- What point t writes back is block t of that product. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x64) hz]
  obtain ⟨e0, e1, e2, e3, e4, e5⟩ := idx_facts t
  funext j
  refine pay_apply (V c main_v40) (V c main_arg4) (iblk3 V c 0 t) (iblk3 V c 1 t) j (((cfg3.win 2).blk t).view.emb j) ?_ ?_ ?_
  · funext y
    show V c main_arg4 (((cfg3.win 1).blk t).view.emb y) = V c main_arg4 y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 64 + 1 * (y 1).val = (y 1).val; omega
  · intro q
    show V c main_v40 (((cfg3.win 0).blk t).view.emb (ix2 (j 0) q)) = V c main_v40 (ix2 ((((cfg3.win 2).blk t).view.emb j) 0) q)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * q.val = q.val; omega
  · apply Fin.ext
    show (j 1).val = win3_2.index t (1 : Fin 2) * 64 + 1 * (j 1).val
    omega

/-- An index of the result array is in point t's block iff its row is one of the block's. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v41).slice (win3_2.rect t)).set ↔ _
  rw [View.set_slice_whole, Rect.mem_set_unit]
  exact Iff.rfl

/-- Every row is in the block of the point numbered by its row block. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  rw [mem_blk]
  obtain ⟨e0, e1, e2, e3, e4, e5⟩ := idx_facts ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 64 ≤ (i 1).val ∧ (i 1).val < win3_2.index _ (1 : Fin 2) * 64 + 64; rw [e5]; omega

/-- The region's result array, after the region, is the product of the arrays it found at its entry. -/
theorem final (c : Dev nD) : (dat3 V c).arrAt 2 cfg3.N = G V c :=
  (dat3 V c).arrAt_eq_of_cover 2 (G V c) (fun t _ => flushed_eq V c t) (cover)

end Cert.KernelIdeal.R3

end
-- ==== Proof.Region4.lean ====
/-
  The per-edge weighting of the second layer, block by block.

  The grid has 170 points; point t takes rows 10000·t … 10000·t + 9999 of the gathered features and the same rows of
  the [1700000, 1] column of edge weights, broadcasts the column across the 64 lanes and multiplies. Entry (p, q) of a
  written block is the feature at (p, q) times the weight of row p, so each block is a block of rows of one array,
  every row scaled by its own weight, and the 170 blocks cover all 1700000 rows.
-/
import proofs.«141969_j51539607552044_2_alg».proof.Proof.Gen.KernelIdeal.Frame
import proofs.«141969_j51539607552044_2_alg».proof.Proof.Spec
import proofs.«141969_j51539607552044_2_alg».proof.Proof.LibRowStat
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three windows' blocks are at row block t. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- One entry of the stored block: the feature times its row's weight. -/
theorem pay_apply (H : S1700000x64.Idx → EReal) (col : S1700000x1.Idx → EReal)
    (x0 : Vec Ideal S10000x64 .f32) (x1 : Vec Ideal S10000x1 .f32) (p : Fin 10000) (q : Fin 64) (i : S1700000x64.Idx)
    (h0 : x0 (ix2 p q) = H i) (h1 : x1 (ix2 p (0 : Fin 1)) = col (ix2 (i 0) (0 : Fin 1))) :
    k4_pay1 x0 x1 (ix2 p q) = Spec.scaleRows H col i := by
  unfold k4_pay1 Spec.scaleRows
  show (shapeCast S10000x64 x0 shapeCasts_S10000x64_S10000x64) (ix2 p q)
      * (broadcastTo S10000x64 (shapeCast S10000x1 x1 shapeCasts_S10000x1_S10000x1) broadcasts_S10000x1_S10000x64) (ix2 p q)
      = H i * col (ix2 (i 0) (0 : Fin 1))
  rw [shapeCast_self, shapeCast_self, Cert.LibRowStat.broadcastTo_a1_ab_apply, h0, h1]

/-- What the region leaves in its result array: the rows it finds, each scaled by its weight. -/
abbrev G (c : Dev nD) : S1700000x64.Idx → EReal := Spec.scaleRows (V c main_v48) (V c main_v49)

/-- What point t writes back is block t of that array. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S10000x64) hz, View.ld_unit_zero (S := S10000x1) hz]
  obtain ⟨e0, e1, e2, e3, e4, e5⟩ := idx_facts t
  funext j
  rw [eq_ix2 j]
  refine pay_apply (V c main_v48) (V c main_v49) (iblk4 V c 0 t) (iblk4 V c 1 t) (j 0) (j 1)
    (((cfg4.win 2).blk t).view.emb (ix2 (j 0) (j 1))) ?_ ?_
  · show V c main_v48 (((cfg4.win 0).blk t).view.emb (ix2 (j 0) (j 1))) = V c main_v48 (((cfg4.win 2).blk t).view.emb (ix2 (j 0) (j 1)))
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  · show V c main_v49 (((cfg4.win 1).blk t).view.emb (ix2 (j 0) (0 : Fin 1))) = V c main_v49 (ix2 ((((cfg4.win 2).blk t).view.emb (ix2 (j 0) (j 1))) 0) (0 : Fin 1))
    refine congrArg _ (funext fun a => Fin.ext ?_)
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega

/-- An index of the result array is in point t's block iff its row is one of the block's. -/
theorem mem_blk (t : Fin cfg4.N) (i : S1700000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v50).slice (win4_2.rect t)).set ↔ _
  rw [View.set_slice_whole, Rect.mem_set_unit]
  exact Iff.rfl

/-- Every row is in the block of the point numbered by its row block. -/
theorem cover (i : S1700000x64.Idx) : ∃ t : Fin cfg4.N, (cfg4.win 2).flush t = true ∧ i ∈ ((cfg4.win 2).blk t).view.set := by
  have hi0 : (i 0).val < 1700000 := (i 0).isLt
  have hi1 : (i 1).val < 64 := (i 1).isLt
  have hN : cfg4.N = 170 := N_4
  refine ⟨⟨(i 0).val / 10000, by rw [hN]; omega⟩, flush4_2 _, ?_⟩
  rw [mem_blk]
  obtain ⟨e0, e1, e2, e3, e4, e5⟩ := idx_facts ⟨(i 0).val / 10000, by rw [hN]; omega⟩
  intro a
  match a with
  | ⟨0, _⟩ => show win4_2.index _ (0 : Fin 2) * 10000 ≤ (i 0).val ∧ (i 0).val < win4_2.index _ (0 : Fin 2) * 10000 + 10000; rw [e4]; show (i 0).val / 10000 * 10000 ≤ (i 0).val ∧ (i 0).val < (i 0).val / 10000 * 10000 + 10000; omega
  | ⟨1, _⟩ => show win4_2.index _ (1 : Fin 2) * 64 ≤ (i 1).val ∧ (i 1).val < win4_2.index _ (1 : Fin 2) * 64 + 64; rw [e5]; omega

/-- The region's result array, after the region, is the array of scaled rows of what it found at its entry. -/
theorem final (c : Dev nD) : (dat4 V c).arrAt 2 cfg4.N = G V c :=
  (dat4 V c).arrAt_eq_of_cover 2 (G V c) (fun t _ => flushed_eq V c t) (cover)

end Cert.KernelIdeal.R4

end
-- ==== Proof.Region5.lean ====
/-
  The bias that ends the second layer, block by block.

  The grid has 20 points; point t takes rows 5000·t … 5000·t + 4999 of the aggregated messages and the whole bias
  vector, lays the vector out as a row, repeats it down the block and adds. Entry (p, q) of a written block is
  A(p, q) + b(q), so each block is a block of rows of one array and the 20
  blocks cover all 100000 rows.
-/
import proofs.«141969_j51539607552044_2_alg».proof.Proof.Gen.KernelIdeal.Frame
import proofs.«141969_j51539607552044_2_alg».proof.Proof.Spec
import Idealize.ShloMosaic.Lib.ValueLayout
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: the messages' and the result's blocks are at row block t, the bias at the origin. -/
theorem idx_facts : ∀ t : Fin cfg5.N,
    win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- One entry of the stored block: the message plus the bias of its lane. -/
theorem pay_apply (A : S100000x64.Idx → EReal) (b : S64.Idx → EReal)
    (x0 : Vec Ideal S5000x64 .f32) (x1 : Vec Ideal S64 .f32) (p : Fin 5000) (q : Fin 64) (i : S100000x64.Idx)
    (h0 : x0 (ix2 p q) = A i) (h1 : x1 (ix1 q) = b (ix1 (i 1))) :
    k5_pay1 x0 x1 (ix2 p q) = Spec.addBias A b i := by
  unfold k5_pay1 Spec.addBias
  show (shapeCast S5000x64 x0 shapeCasts_S5000x64_S5000x64) (ix2 p q)
      + (broadcastTo S5000x64 (shapeCast S1x64 x1 shapeCasts_S64_S1x64) broadcasts_S1x64_S5000x64) (ix2 p q)
      = A i + b (ix1 (i 1))
  rw [shapeCast_self, broadcastTo_1b_ab_apply, shapeCast_a_1a_apply, h0, h1]

/-- What the region leaves in its result array. -/
abbrev G (c : Dev nD) : S100000x64.Idx → EReal := Spec.addBias (V c main_v53) (V c main_arg5)

/-- What point t writes back is block t of that array. -/
theorem flushed_eq (c : Dev nD) (t : Fin cfg5.N) :
    (dat5 V c).flushed 2 t = ((cfg5.win 2).blk t).view.read (Elt Ideal) (G V c) := by
  show (cfg5.win 2).cut (grid5.coords t) ((dat5 V c).after 2 t) = _
  rw [after5_2]
  unfold out5_2
  rw [View.canon_unit_zero hz]
  simp only [View.ld_unit_zero (S := S5000x64) hz, View.ld_unit_zero (S := S64) hz1]
  obtain ⟨e0, e1, e2, e4, e5⟩ := idx_facts t
  funext j
  rw [eq_ix2 j]
  refine pay_apply (V c main_v53) (V c main_arg5) (iblk5 V c 0 t) (iblk5 V c 1 t) (j 0) (j 1)
    (((cfg5.win 2).blk t).view.emb (ix2 (j 0) (j 1))) ?_ ?_
  · show V c main_v53 (((cfg5.win 0).blk t).view.emb (ix2 (j 0) (j 1))) = V c main_v53 (((cfg5.win 2).blk t).view.emb (ix2 (j 0) (j 1)))
    refine congrArg _ (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  · show V c main_arg5 (((cfg5.win 1).blk t).view.emb (ix1 (j 1))) = V c main_arg5 (ix1 ((((cfg5.win 2).blk t).view.emb (ix2 (j 0) (j 1))) 1))
    refine congrArg _ (funext fun a => Fin.ext ?_)
    match a with
    | ⟨0, _⟩ => show win5_1.index t (0 : Fin 1) * 64 + 1 * (j 1).val = win5_2.index t (1 : Fin 2) * 64 + 1 * (j 1).val; omega

/-- An index of the result array is in point t's block iff its row is one of the block's. -/
theorem mem_blk (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v54).slice (win5_2.rect t)).set ↔ _
  rw [View.set_slice_whole, Rect.mem_set_unit]
  exact Iff.rfl

/-- Every row is in the block of the point numbered by its row block. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  refine ⟨⟨(i 0).val / 5000, by rw [hN]; omega⟩, flush5_2 _, ?_⟩
  rw [mem_blk]
  obtain ⟨e0, e1, e2, e4, e5⟩ := idx_facts ⟨(i 0).val / 5000, by rw [hN]; omega⟩
  intro a
  match a with
  | ⟨0, _⟩ => show win5_2.index _ (0 : Fin 2) * 5000 ≤ (i 0).val ∧ (i 0).val < win5_2.index _ (0 : Fin 2) * 5000 + 5000; rw [e4]; show (i 0).val / 5000 * 5000 ≤ (i 0).val ∧ (i 0).val < (i 0).val / 5000 * 5000 + 5000; omega
  | ⟨1, _⟩ => show win5_2.index _ (1 : Fin 2) * 64 ≤ (i 1).val ∧ (i 1).val < win5_2.index _ (1 : Fin 2) * 64 + 64; rw [e5]; omega

/-- The region's result array, after the region. -/
theorem final (c : Dev nD) : (dat5 V c).arrAt 2 cfg5.N = G V c :=
  (dat5 V c).arrAt_eq_of_cover 2 (G V c) (fun t _ => flushed_eq V c t) (cover)

end Cert.KernelIdeal.R5

end
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.Region6.lean ====
/-
  The decoder's per-edge error, block by block.

  The grid has 200 points; point t takes rows 8000·t … 8000·t + 7999 of the two gathered end-point arrays, multiplies
  them entry by entry, sums each row's 64 lanes, keeps the sums as an [8000, 1] column and maps each sum s to
  0 − log(logistic s + ε). Entry (p, 0) of a written block reads row p of both arrays only, so each block is a block of
  rows of one [1600000, 1] column and the 200 blocks cover all 1600000 rows.
-/
import proofs.«141969_j51539607552044_2_alg».proof.Proof.Gen.KernelIdeal.Frame
import proofs.«141969_j51539607552044_2_alg».proof.Proof.Spec
import proofs.«141969_j51539607552044_2_alg».proof.Proof.LibRowStat
import proofs.«141969_j51539607552044_2_alg».proof.Proof.LibKeepdims
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three windows' blocks are at row block t. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- The logarithm and the logistic function of an array, entry by entry. -/
theorem log_apply {s : Shape} {φ : FTy} (a : FVec Ideal s φ) (i : s.Idx) : log a i = Ideal.log (a i) := rfl
theorem logistic_apply {s : Shape} {φ : FTy} (a : FVec Ideal s φ) (i : s.Idx) : logistic a i = Ideal.logistic (a i) := rfl

/-- One entry of the stored column: the error of the edge whose two rows the blocks hold at row p. -/
theorem pay_apply (Zr Zc : S1600000x64.Idx → EReal)
    (x0 x1 : Vec Ideal S8000x64 .f32) (p : Fin 8000) (u : Fin 1) (i : S1600000x1.Idx)
    (h0 : ∀ k : Fin 64, x0 (ix2 p k) = Zr (ix2 (i 0) k)) (h1 : ∀ k : Fin 64, x1 (ix2 p k) = Zc (ix2 (i 0) k)) :
    k6_pay1 x0 x1 (ix2 p u) = Spec.edgeError Zr Zc i := by
  unfold k6_pay1 Spec.edgeError
  dsimp only
  simp only [subf_apply, addf_apply, log_apply, logistic_apply, broadcast_apply, shapeCast_self]
  rw [Cert.LibKeepdims.shapeCast_a_a1_apply]
  refine congrArg (fun s : EReal => Ideal.ofBits .f32 0x00000000#32 - Ideal.log (Ideal.logistic s + Ideal.ofBits .f32 0x26901D7D#32)) ?_
  refine (Cert.LibRowStat.sum_lanes_apply (mulf x0 x1) _ _ _ _ p).trans ?_
  exact Finset.sum_congr rfl fun k _ => by rw [mulf_apply, h0, h1]

/-- What the region leaves in its result array. -/
abbrev G (c : Dev nD) : S1600000x1.Idx → EReal := Spec.edgeError (V c main_v65) (V c main_v72)

/-- What point t writes back is block t of that column. -/
theorem flushed_eq (c : Dev nD) (t : Fin cfg6.N) :
    (dat6 V c).flushed 2 t = ((cfg6.win 2).blk t).view.read (Elt Ideal) (G V c) := by
  show (cfg6.win 2).cut (grid6.coords t) ((dat6 V c).after 2 t) = _
  rw [after6_2]
  unfold out6_2
  rw [View.canon_unit_zero hz]
  simp only [View.ld_unit_zero (S := S8000x64) hz]
  obtain ⟨e0, e1, e2, e3, e4, e5⟩ := idx_facts t
  funext j
  rw [eq_ix2 j]
  refine pay_apply (V c main_v65) (V c main_v72) (iblk6 V c 0 t) (iblk6 V c 1 t) (j 0) (j 1)
    (((cfg6.win 2).blk t).view.emb (ix2 (j 0) (j 1))) ?_ ?_
  · intro k
    show V c main_v65 (((cfg6.win 0).blk t).view.emb (ix2 (j 0) k)) = V c main_v65 (ix2 ((((cfg6.win 2).blk t).view.emb (ix2 (j 0) (j 1))) 0) k)
    refine congrArg _ (funext fun a => Fin.ext ?_)
    match a with
    | ⟨0, _⟩ => show win6_0.index t (0 : Fin 2) * 8000 + 1 * (j 0).val = win6_2.index t (0 : Fin 2) * 8000 + 1 * (j 0).val; omega
    | ⟨1, _⟩ => show win6_0.index t (1 : Fin 2) * 64 + 1 * k.val = k.val; omega
  · intro k
    show V c main_v72 (((cfg6.win 1).blk t).view.emb (ix2 (j 0) k)) = V c main_v72 (ix2 ((((cfg6.win 2).blk t).view.emb (ix2 (j 0) (j 1))) 0) k)
    refine congrArg _ (funext fun a => Fin.ext ?_)
    match a with
    | ⟨0, _⟩ => show win6_1.index t (0 : Fin 2) * 8000 + 1 * (j 0).val = win6_2.index t (0 : Fin 2) * 8000 + 1 * (j 0).val; omega
    | ⟨1, _⟩ => show win6_1.index t (1 : Fin 2) * 64 + 1 * k.val = k.val; omega

/-- An index of the result array is in point t's block iff its row is one of the block's. -/
theorem mem_blk (t : Fin cfg6.N) (i : S1600000x1.Idx) :
    i ∈ ((cfg6.win 2).blk t).view.set ↔ ∀ a : Fin 2, win6_2.index t a * S8000x1.size a ≤ (i a).val ∧ (i a).val < win6_2.index t a * S8000x1.size a + S8000x1.size a := by
  show i ∈ ((View.whole main_v73).slice (win6_2.rect t)).set ↔ _
  rw [View.set_slice_whole, Rect.mem_set_unit]
  exact Iff.rfl

/-- Every row is in the block of the point numbered by its row block. -/
theorem cover (i : S1600000x1.Idx) : ∃ t : Fin cfg6.N, (cfg6.win 2).flush t = true ∧ i ∈ ((cfg6.win 2).blk t).view.set := by
  have hi0 : (i 0).val < 1600000 := (i 0).isLt
  have hi1 : (i 1).val < 1 := (i 1).isLt
  have hN : cfg6.N = 200 := N_6
  refine ⟨⟨(i 0).val / 8000, by rw [hN]; omega⟩, flush6_2 _, ?_⟩
  rw [mem_blk]
  obtain ⟨e0, e1, e2, e3, e4, e5⟩ := idx_facts ⟨(i 0).val / 8000, by rw [hN]; omega⟩
  intro a
  match a with
  | ⟨0, _⟩ => show win6_2.index _ (0 : Fin 2) * 8000 ≤ (i 0).val ∧ (i 0).val < win6_2.index _ (0 : Fin 2) * 8000 + 8000; rw [e4]; show (i 0).val / 8000 * 8000 ≤ (i 0).val ∧ (i 0).val < (i 0).val / 8000 * 8000 + 8000; omega
  | ⟨1, _⟩ => show win6_2.index _ (1 : Fin 2) * 1 ≤ (i 1).val ∧ (i 1).val < win6_2.index _ (1 : Fin 2) * 1 + 1; rw [e5]; omega

/-- The region's result array, after the region. -/
theorem final (c : Dev nD) : (dat6 V c).arrAt 2 cfg6.N = G V c :=
  (dat6 V c).arrAt_eq_of_cover 2 (G V c) (fun t _ => flushed_eq V c t) (cover)

end Cert.KernelIdeal.R6

end
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.LibF32Literals.lean ====
/-
  Binary32 literals as extended reals. At the exact (extended-real) reading of floats a literal is the value its
  IEEE-754 pattern denotes: sign bit, eight exponent bits with bias 127, twenty-three fraction bits. The patterns
  here are those of 0, 1, 2, 16, 256 and 16384.
-/
import Idealize.ShloMosaic.PureOps.Ideal

noncomputable section

namespace Cert.LibF32Literals

open Idealize.ShloMosaic

/-- The pattern of +0.0 denotes 0. -/
theorem ofBits_zero : Ideal.ofBits .f32 0x00000000#32 = 0 := by
  simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The pattern 0x3F800000 denotes the real 1. -/
theorem ofBits_one_coe : Ideal.ofBits .f32 0x3F800000#32 = ((1 : ℝ) : EReal) := by
  rw [ofBits_one]; norm_cast

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x41800000 denotes the real 16. -/
theorem ofBits_16 : Ideal.ofBits .f32 0x41800000#32 = ((16 : ℝ) : EReal) := by
  simp [Ideal.ofBits, Ideal.ieee, -EReal.coe_mul]; norm_num

/-- The pattern 0x43800000 denotes the real 256. -/
theorem ofBits_256 : Ideal.ofBits .f32 0x43800000#32 = ((256 : ℝ) : EReal) := by
  simp [Ideal.ofBits, Ideal.ieee, -EReal.coe_mul]; norm_num

/-- The pattern 0x46800000 denotes the real 16384. -/
theorem ofBits_16384 : Ideal.ofBits .f32 0x46800000#32 = ((16384 : ℝ) : EReal) := by
  simp [Ideal.ofBits, Ideal.ieee, -EReal.coe_mul]; norm_num

end Cert.LibF32Literals

end
-- ==== Proof.RefStages.lean ====
/-
  The reference program's dense stages, entry by entry.

  Each dense stage of the reference is a short chain of host operations; read at an index it is the same function of
  whole arrays as the kernel's corresponding launch. The host product of two matrices is the sum over the contracted
  coordinate. A vector of per-edge weights broadcast to a column and then across the lanes multiplies every entry of a
  row by that row's weight, as does the same vector reshaped to a column. A bias broadcast to a row and then down the
  rows adds to every entry the bias of its lane. The logistic function spelt 1 / (1 + exp(−s)) is the logistic
  function, a sum started from the literal zero is the sum, and the negation of a logarithm is zero minus it.
-/
import proofs.«141969_j51539607552044_2_alg».proof.Proof.RefReadP
import proofs.«141969_j51539607552044_2_alg».proof.Proof.Spec
import proofs.«141969_j51539607552044_2_alg».proof.Proof.LibColRow
import proofs.«141969_j51539607552044_2_alg».proof.Proof.LibF32Literals
import Idealize.ShloMosaic.Lib.Pipeline.Value
import Idealize.ShloMosaic.Lib.ValueIdx

noncomputable section

namespace Cert.ReferenceIdeal.Stages

open Cert.ReferenceIdeal Cert.ReferenceIdeal.ReadP
open Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first layer's product of features and weights. -/
theorem lin1 : val_main_v12 (F := Ideal) x0 x2 = Cert.Spec.lin x0 x2 := by
  unfold val_main_v12
  exact Cert.LibDenseProduct.dotGeneral_plain_eq none x0 x2

/-- The second layer's product. -/
theorem lin2 : val_main_v45 (F := Ideal) x0 x1 x2 x3 x4 = Cert.Spec.lin (val_main_v44 (F := Ideal) x0 x1 x2 x3) x4 := by
  unfold val_main_v45
  exact Cert.LibDenseProduct.dotGeneral_plain_eq none _ x4

/-- The reference computes the edge weights once per layer, by the same operations of the edge list. -/
theorem weights_again : val_main_v60 (F := Ideal) x1 = val_main_v27 (F := Ideal) x1 := rfl

/-- The first layer's weighting: the gathered rows, each scaled by its edge's weight. -/
theorem scale1 (h : S1700000.ShapeCasts S1700000x1) :
    val_main_v37 (F := Ideal) x0 x1 x2
      = Cert.Spec.scaleRows (val_main_v34 (F := Ideal) x0 x1 x2) (shapeCast S1700000x1 (val_main_v27 (F := Ideal) x1) h) := by
  funext i
  obtain ⟨p, q, rfl⟩ : ∃ (p : Fin 1700000) (q : Fin 128), i = ix2 p q := ⟨i 0, i 1, eq_ix2 i⟩
  rw [val_main_v37_apply, val_main_v36_apply, val_main_v35_apply]
  show val_main_v34 (F := Ideal) x0 x1 x2 (ix2 p q) * val_main_v27 (F := Ideal) x1 (idx_main_v35 (idx_main_v36 (ix2 p q)))
    = val_main_v34 (F := Ideal) x0 x1 x2 (ix2 p q) * shapeCast S1700000x1 (val_main_v27 (F := Ideal) x1) h (ix2 p (0 : Fin 1))
  rw [Cert.LibColRow.shapeCast_a_a1_apply]
  refine congrArg (fun j => val_main_v34 (F := Ideal) x0 x1 x2 (ix2 p q) * val_main_v27 (F := Ideal) x1 j) (funext fun a => ?_)
  match a with
  | ⟨0, _⟩ => rfl

/-- The second layer's weighting. -/
theorem scale2 (h : S1700000.ShapeCasts S1700000x1) :
    val_main_v70 (F := Ideal) x0 x1 x2 x3 x4
      = Cert.Spec.scaleRows (val_main_v67 (F := Ideal) x0 x1 x2 x3 x4) (shapeCast S1700000x1 (val_main_v27 (F := Ideal) x1) h) := by
  funext i
  obtain ⟨p, q, rfl⟩ : ∃ (p : Fin 1700000) (q : Fin 64), i = ix2 p q := ⟨i 0, i 1, eq_ix2 i⟩
  rw [val_main_v70_apply, val_main_v69_apply, val_main_v68_apply, weights_again]
  show val_main_v67 (F := Ideal) x0 x1 x2 x3 x4 (ix2 p q) * val_main_v27 (F := Ideal) x1 (idx_main_v68 (idx_main_v69 (ix2 p q)))
    = val_main_v67 (F := Ideal) x0 x1 x2 x3 x4 (ix2 p q) * shapeCast S1700000x1 (val_main_v27 (F := Ideal) x1) h (ix2 p (0 : Fin 1))
  rw [Cert.LibColRow.shapeCast_a_a1_apply]
  refine congrArg (fun j => val_main_v67 (F := Ideal) x0 x1 x2 x3 x4 (ix2 p q) * val_main_v27 (F := Ideal) x1 j) (funext fun a => ?_)
  match a with
  | ⟨0, _⟩ => rfl

/-- The first layer's bias and maximum with zero. -/
theorem biasRelu : val_main_v44 (F := Ideal) x0 x1 x2 x3 = Cert.Spec.addBiasRelu (val_main_v40 (F := Ideal) x0 x1 x2) x3 := by
  funext i
  rw [val_main_v44_apply, val_main_v43_apply, val_main_v42_apply, val_main_v41_apply, val_main_call0_v0_apply, val_main_call0_cst_apply]
  unfold Cert.Spec.addBiasRelu
  refine congrArg (fun j => max (val_main_v40 (F := Ideal) x0 x1 x2 i + x3 j) (Ideal.ofBits .f32 0x00000000#32)) (funext fun a => ?_)
  match a with
  | ⟨0, _⟩ => rfl

/-- The second layer's bias. -/
theorem bias2 : val_main_v76 (F := Ideal) x0 x1 x2 x3 x4 x5 = Cert.Spec.addBias (val_main_v73 (F := Ideal) x0 x1 x2 x3 x4) x5 := by
  funext i
  rw [val_main_v76_apply, val_main_v75_apply, val_main_v74_apply]
  unfold Cert.Spec.addBias
  refine congrArg (fun j => val_main_v73 (F := Ideal) x0 x1 x2 x3 x4 i + x5 j) (funext fun a => ?_)
  match a with
  | ⟨0, _⟩ => rfl

/-- An [a, 1] column reshaped to a vector reads, at p, the column at (p, 0). -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- The column of errors at row p. -/
theorem edgeError_apply {M N : ℕ} (zr zc : (⟨2, ![M, N]⟩ : Shape).Idx → EReal) (p : Fin M) (u : Fin 1) :
    Cert.Spec.edgeError zr zc (ix2 p u)
      = Ideal.ofBits .f32 0x00000000#32
        - Ideal.log (Ideal.logistic (∑ k : Fin N, zr (ix2 p k) * zc (ix2 p k)) + Ideal.ofBits .f32 0x26901D7D#32) := rfl

/-- One edge's error in the reference's spelling — the logistic function as 1 / (1 + exp(−s)) over literal ones, the sum
    started from the literal zero, the logarithm negated — is the kernel's: zero minus the logarithm of logistic s + ε. -/
theorem error_scalar (s e : EReal) :
    -(Ideal.log (Ideal.div (Ideal.ofBits .f32 0x3F800000#32)
        (Ideal.ofBits .f32 0x3F800000#32 + Ideal.exp (-(Ideal.ofBits .f32 0x00000000#32 + s))) + e))
      = Ideal.ofBits .f32 0x00000000#32 - Ideal.log (Ideal.logistic s + e) := by
  rw [Cert.LibF32Literals.ofBits_one, Cert.LibF32Literals.ofBits_zero, zero_add, sub_eq_add_neg, zero_add]
  rfl

/-- The decoder's per-edge error: the reference's vector of errors is the column of errors, reshaped. -/
theorem edge (h : S1600000x1.ShapeCasts S1600000) :
    val_main_v106 (F := Ideal) x0 x1 x2 x3 x4 x5
      = shapeCast S1600000 (Cert.Spec.edgeError (val_main_v87 (F := Ideal) x0 x1 x2 x3 x4 x5) (val_main_v94 (F := Ideal) x0 x1 x2 x3 x4 x5)) h := by
  funext i
  obtain ⟨p, rfl⟩ : ∃ p : Fin 1600000, i = ix1 p := ⟨i 0, eq_ix1 i⟩
  rw [shapeCast_a1_a_apply, edgeError_apply]
  rw [val_main_v106_apply, val_main_v105_apply, val_main_v104_apply, val_main_v103_apply, val_main_cst_21_apply,
    val_main_v102_apply, val_main_v101_apply, val_main_cst_20_apply, val_main_v100_apply, val_main_v99_apply,
    val_main_cst_19_apply, val_main_v98_apply, val_main_v97_apply, val_main_v96_apply, val_main_cst_18_apply]
  have hsum : (∑ k : Fin 64, val_main_v95 (F := Ideal) x0 x1 x2 x3 x4 x5 (idx_main_v96 (ix1 p) k))
      = ∑ k : Fin 64, val_main_v87 (F := Ideal) x0 x1 x2 x3 x4 x5 (ix2 p k) * val_main_v94 (F := Ideal) x0 x1 x2 x3 x4 x5 (ix2 p k) :=
    Finset.sum_congr rfl fun k _ => by
      have e : idx_main_v96 (ix1 p) k = ix2 p k := funext fun a => Fin.ext (by match a with | ⟨0, _⟩ => rfl | ⟨1, _⟩ => rfl)
      rw [e, val_main_v95_apply]
      exact Ideal.mulf_def _ _
  rw [hsum]
  generalize (∑ k : Fin 64, val_main_v87 (F := Ideal) x0 x1 x2 x3 x4 x5 (ix2 p k) * val_main_v94 (F := Ideal) x0 x1 x2 x3 x4 x5 (ix2 p k)) = s
  exact error_scalar s _

end Cert.ReferenceIdeal.Stages

end
-- ==== Proof.Chain.lean ====
/-
  The idealized kernel's result as the reference's function of the arguments.

  The program is followed from its first stretch of host operations to its last. Each stretch reads buffers an earlier
  segment wrote and applies the same host operations as the reference does at the same place; each launch leaves, in its
  result array, the dense stage of the arrays it finds (the seven closed forms), which is the reference's stage of the
  same arrays. So every buffer the program goes on to read holds the reference's value of the corresponding stage, and
  the result buffer holds the reference's result.
-/
import proofs.«141969_j51539607552044_2_alg».proof.Proof.Keeps
import proofs.«141969_j51539607552044_2_alg».proof.Proof.Region0
import proofs.«141969_j51539607552044_2_alg».proof.Proof.Region1
import proofs.«141969_j51539607552044_2_alg».proof.Proof.Region2
import proofs.«141969_j51539607552044_2_alg».proof.Proof.Region3
import proofs.«141969_j51539607552044_2_alg».proof.Proof.Region4
import proofs.«141969_j51539607552044_2_alg».proof.Proof.Region5
import proofs.«141969_j51539607552044_2_alg».proof.Proof.Region6
import proofs.«141969_j51539607552044_2_alg».proof.Proof.RefStages
import Idealize.ShloMosaic.Lib.StableHlo.Run

set_option maxRecDepth 16384

noncomputable section

namespace Cert.KernelIdeal.Chain

open Cert.KernelIdeal Cert.KernelIdeal.Gen Cert.KernelIdeal.Keeps
open Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg)

/-- The six arguments as launched. -/
abbrev X0 (c : Dev nD) := m ((c : Thread nD τ).loc main_arg0)
abbrev X1 (c : Dev nD) := m ((c : Thread nD τ).loc main_arg1)
abbrev X2 (c : Dev nD) := m ((c : Thread nD τ).loc main_arg2)
abbrev X3 (c : Dev nD) := m ((c : Thread nD τ).loc main_arg3)
abbrev X4 (c : Dev nD) := m ((c : Thread nD τ).loc main_arg4)
abbrev X5 (c : Dev nD) := m ((c : Thread nD τ).loc main_arg5)

/-! ## The first stretch: the edge lists with self loops, and the edge weights -/

theorem src_eq (c : Dev nD) : W1 m ρ c (Proc.devRef .tc main_v3) = val_main_v3 (F := Ideal) (X1 m c) := by
  show StableHlo.after hostOps0 (W0 m ρ c) (Proc.devRef .tc main_v3) = _
  after_results_simp
  rfl

theorem dst_eq (c : Dev nD) : W1 m ρ c (Proc.devRef .tc main_v6) = val_main_v6 (F := Ideal) (X1 m c) := by
  show StableHlo.after hostOps0 (W0 m ρ c) (Proc.devRef .tc main_v6) = _
  after_results_simp
  rfl

theorem nrm_eq (c : Dev nD) : W1 m ρ c (Proc.devRef .tc main_v26) = val_main_v27 (F := Ideal) (X1 m c) := by
  show StableHlo.after hostOps0 (W0 m ρ c) (Proc.devRef .tc main_v26) = _
  after_results_simp
  rfl

/-! ## The first layer -/

theorem v27_eq (c : Dev nD) : W2 m ρ c (Proc.devRef .tc main_v27) = val_main_v12 (F := Ideal) (X0 m c) (X2 m c) :=
  (W2_arr m ρ c 2).trans <| (Cert.KernelIdeal.R0.final (V1 m ρ) c).trans <| by
    show Cert.Spec.lin (W1 m ρ c (Proc.devRef .tc main_arg0)) (W1 m ρ c (Proc.devRef .tc main_arg2)) = _
    rw [arg0_W1, arg2_W1]
    exact (Cert.ReferenceIdeal.Stages.lin1 _ _).symm

theorem v34_eq (c : Dev nD) : W3 m ρ c (Proc.devRef .tc main_v34) = val_main_v34 (F := Ideal) (X0 m c) (X1 m c) (X2 m c) := by
  show StableHlo.after hostOps1 (W2 m ρ c) (Proc.devRef .tc main_v34) = _
  after_results_simp
  rw [v27_eq, v3_W2, src_eq]
  rfl

theorem v35_eq (c : Dev nD) : W3 m ρ c (Proc.devRef .tc main_v35)
    = shapeCast S1700000x1 (val_main_v27 (F := Ideal) (X1 m c)) shapeCasts_S1700000_S1700000x1 := by
  show StableHlo.after hostOps1 (W2 m ρ c) (Proc.devRef .tc main_v35) = _
  after_results_simp
  rw [v26_W2, nrm_eq]
  rfl

theorem v36_eq (c : Dev nD) : W4 m ρ c (Proc.devRef .tc main_v36) = val_main_v37 (F := Ideal) (X0 m c) (X1 m c) (X2 m c) :=
  (W4_arr m ρ c 2).trans <| (Cert.KernelIdeal.R1.final (V3 m ρ) c).trans <| by
    show Cert.Spec.scaleRows (W3 m ρ c (Proc.devRef .tc main_v34)) (W3 m ρ c (Proc.devRef .tc main_v35)) = _
    rw [v34_eq, v35_eq]
    exact (Cert.ReferenceIdeal.Stages.scale1 _ _ _ _).symm

theorem v39_eq (c : Dev nD) : W5 m ρ c (Proc.devRef .tc main_v39) = val_main_v40 (F := Ideal) (X0 m c) (X1 m c) (X2 m c) := by
  show StableHlo.after hostOps2 (W4 m ρ c) (Proc.devRef .tc main_v39) = _
  after_results_simp
  rw [v6_W4, dst_eq, v36_eq]
  rfl

theorem v40_eq (c : Dev nD) : W6 m ρ c (Proc.devRef .tc main_v40) = val_main_v44 (F := Ideal) (X0 m c) (X1 m c) (X2 m c) (X3 m c) :=
  (W6_arr m ρ c 2).trans <| (Cert.KernelIdeal.R2.final (V5 m ρ) c).trans <| by
    show Cert.Spec.addBiasRelu (W5 m ρ c (Proc.devRef .tc main_v39)) (W5 m ρ c (Proc.devRef .tc main_arg3)) = _
    rw [v39_eq, arg3_W5]
    exact (Cert.ReferenceIdeal.Stages.biasRelu _ _ _ _).symm

/-! ## The second layer -/

theorem v41_eq (c : Dev nD) : W7 m ρ c (Proc.devRef .tc main_v41)
    = val_main_v45 (F := Ideal) (X0 m c) (X1 m c) (X2 m c) (X3 m c) (X4 m c) :=
  (W7_arr m ρ c 2).trans <| (Cert.KernelIdeal.R3.final (V6 m ρ) c).trans <| by
    show Cert.Spec.lin (W6 m ρ c (Proc.devRef .tc main_v40)) (W6 m ρ c (Proc.devRef .tc main_arg4)) = _
    rw [v40_eq, arg4_W6]
    exact (Cert.ReferenceIdeal.Stages.lin2 _ _ _ _ _).symm

theorem v48_eq (c : Dev nD) : W8 m ρ c (Proc.devRef .tc main_v48)
    = val_main_v67 (F := Ideal) (X0 m c) (X1 m c) (X2 m c) (X3 m c) (X4 m c) := by
  show StableHlo.after hostOps4 (W7 m ρ c) (Proc.devRef .tc main_v48) = _
  after_results_simp
  rw [v41_eq, v3_W7, src_eq]
  rfl

theorem v49_eq (c : Dev nD) : W8 m ρ c (Proc.devRef .tc main_v49)
    = shapeCast S1700000x1 (val_main_v27 (F := Ideal) (X1 m c)) shapeCasts_S1700000_S1700000x1 := by
  show StableHlo.after hostOps4 (W7 m ρ c) (Proc.devRef .tc main_v49) = _
  after_results_simp
  rw [v26_W7, nrm_eq]
  rfl

theorem v50_eq (c : Dev nD) : W9 m ρ c (Proc.devRef .tc main_v50)
    = val_main_v70 (F := Ideal) (X0 m c) (X1 m c) (X2 m c) (X3 m c) (X4 m c) :=
  (W9_arr m ρ c 2).trans <| (Cert.KernelIdeal.R4.final (V8 m ρ) c).trans <| by
    show Cert.Spec.scaleRows (W8 m ρ c (Proc.devRef .tc main_v48)) (W8 m ρ c (Proc.devRef .tc main_v49)) = _
    rw [v48_eq, v49_eq]
    exact (Cert.ReferenceIdeal.Stages.scale2 _ _ _ _ _ _).symm

theorem v53_eq (c : Dev nD) : W10 m ρ c (Proc.devRef .tc main_v53)
    = val_main_v73 (F := Ideal) (X0 m c) (X1 m c) (X2 m c) (X3 m c) (X4 m c) := by
  show StableHlo.after hostOps5 (W9 m ρ c) (Proc.devRef .tc main_v53) = _
  after_results_simp
  rw [v6_W9, dst_eq, v50_eq]
  rfl

theorem v54_eq (c : Dev nD) : W11 m ρ c (Proc.devRef .tc main_v54)
    = val_main_v76 (F := Ideal) (X0 m c) (X1 m c) (X2 m c) (X3 m c) (X4 m c) (X5 m c) :=
  (W11_arr m ρ c 2).trans <| (Cert.KernelIdeal.R5.final (V10 m ρ) c).trans <| by
    show Cert.Spec.addBias (W10 m ρ c (Proc.devRef .tc main_v53)) (W10 m ρ c (Proc.devRef .tc main_arg5)) = _
    rw [v53_eq, arg5_W10]
    exact (Cert.ReferenceIdeal.Stages.bias2 _ _ _ _ _ _).symm

/-! ## The decoder -/

theorem v65_eq (c : Dev nD) : W12 m ρ c (Proc.devRef .tc main_v65)
    = val_main_v87 (F := Ideal) (X0 m c) (X1 m c) (X2 m c) (X3 m c) (X4 m c) (X5 m c) := by
  show StableHlo.after hostOps6 (W11 m ρ c) (Proc.devRef .tc main_v65) = _
  after_results_simp
  rw [v54_eq, arg1_W11]
  rfl

theorem v72_eq (c : Dev nD) : W12 m ρ c (Proc.devRef .tc main_v72)
    = val_main_v94 (F := Ideal) (X0 m c) (X1 m c) (X2 m c) (X3 m c) (X4 m c) (X5 m c) := by
  show StableHlo.after hostOps6 (W11 m ρ c) (Proc.devRef .tc main_v72) = _
  after_results_simp
  rw [v54_eq, arg1_W11]
  rfl

theorem v56_eq (c : Dev nD) : W12 m ρ c (Proc.devRef .tc main_v56) = val_main_v78 (F := Ideal) (X1 m c) := by
  show StableHlo.after hostOps6 (W11 m ρ c) (Proc.devRef .tc main_v56) = _
  after_results_simp
  rw [arg1_W11]
  rfl

theorem v73_eq (c : Dev nD) : W13 m ρ c (Proc.devRef .tc main_v73)
    = Cert.Spec.edgeError (val_main_v87 (F := Ideal) (X0 m c) (X1 m c) (X2 m c) (X3 m c) (X4 m c) (X5 m c))
        (val_main_v94 (F := Ideal) (X0 m c) (X1 m c) (X2 m c) (X3 m c) (X4 m c) (X5 m c)) :=
  (W13_arr m ρ c 2).trans <| (Cert.KernelIdeal.R6.final (V12 m ρ) c).trans <| by
    show Cert.Spec.edgeError (W12 m ρ c (Proc.devRef .tc main_v65)) (W12 m ρ c (Proc.devRef .tc main_v72)) = _
    rw [v65_eq, v72_eq]

/-! ## The last stretch: the errors summed per source node, the node degrees, and their quotient -/

/-- The mask of the nodes with at least one outgoing edge. -/
theorem v83_eq (c : Dev nD) : W14 m ρ c (Proc.devRef .tc main_v83) = val_main_v115 (F := Ideal) (X1 m c) := by
  show StableHlo.after hostOps7 (W13 m ρ c) (Proc.devRef .tc main_v83) = _
  after_results_simp
  rw [v56_W13, v56_eq]
  rfl

/-- The summed errors over the degree, at least one. -/
theorem v86_eq (c : Dev nD) : W14 m ρ c (Proc.devRef .tc main_v86)
    = val_main_v118 (F := Ideal) (X0 m c) (X1 m c) (X2 m c) (X3 m c) (X4 m c) (X5 m c) := by
  show StableHlo.after hostOps7 (W13 m ρ c) (Proc.devRef .tc main_v86) = _
  after_results_simp
  rw [v73_eq, v56_W13, v56_eq]
  unfold val_main_v118 val_main_v109
  rw [Cert.ReferenceIdeal.Stages.edge _ _ _ _ _ _ shapeCasts_S1600000x1_S1600000]
  rfl

/-- The value given to a node without outgoing edges. -/
theorem cst19_eq (c : Dev nD) : W14 m ρ c (Proc.devRef .tc main_cst_19) = val_main_cst_27 (F := Ideal) := by
  show StableHlo.after hostOps7 (W13 m ρ c) (Proc.devRef .tc main_cst_19) = _
  after_results_simp
  rfl

/-! ## The result -/

/-- The last three operations, from any contents: where the mask holds the quotient, elsewhere the constant. -/
theorem select_tail (W : Valuation τ sig (Elt Ideal)) (mask : (⟨S100000, .i1⟩ : BufTy).Contents (Elt Ideal))
    (q : (⟨S100000, .f32⟩ : BufTy).Contents (Elt Ideal)) (k : (⟨S_, .f32⟩ : BufTy).Contents (Elt Ideal))
    (h83 : W (Proc.devRef .tc main_v83) = mask) (h86 : W (Proc.devRef .tc main_v86) = q)
    (h19 : W (Proc.devRef .tc main_cst_19) = k) :
    StableHlo.after hostOps7_1 W (Proc.devRef .tc main_v87)
      = select mask q (broadcastInDim S100000 ![] bcast_S_S100000 (id k)) := by
  after_results_simp
  rw [h83, h86, h19]
  simp only [cast_eq]

theorem result_eq (c : Dev nD) : W15 m ρ c (Proc.devRef .tc main_v87)
    = val_main_v119 (F := Ideal) (X0 m c) (X1 m c) (X2 m c) (X3 m c) (X4 m c) (X5 m c) :=
  (select_tail (W14 m ρ c) _ _ _ (v83_eq m ρ c) (v86_eq m ρ c) (cst19_eq m ρ c)).trans rfl

end Cert.KernelIdeal.Chain

end
-- ==== Proof.lean ====
/-
  The certificate of a two-layer graph convolution with an inner-product edge decoder against its host reference.

  The kernel program computes, per layer, X · W by a pipelined matrix product over blocks of 5000 rows, gathers the
  product's rows along the edges on the host, scales each gathered row by its edge's weight in a second pipelined
  launch, sums the rows arriving at each node on the host, and adds the bias (followed, in the first layer, by the
  maximum with zero) in a third launch; a last launch maps the inner product s of each edge's two end points to
  −log(1/(1 + e^(−s)) + ε), and the host averages these errors per source node. The reference does the same with host
  operations throughout. Over the extended reals each launch leaves in its result array exactly the reference's stage of
  the arrays it finds: a row of a product reads one row of the left factor, the scaling, the bias and the decoder read
  one row each, a change of number format is the identity, and the sums are sums in a commutative monoid. The gathers
  and the sums over edges are the same host operations of the same edge list on both sides, so no property of the edge
  list and no finiteness of the inputs is used. The three frames are the generated ones (the reference's is its run
  with the result dropped); the idealization rewrote nothing.
-/
import proofs.«141969_j51539607552044_2_alg».proof.Defs
import proofs.«141969_j51539607552044_2_alg».proof.Proof.Gen.Kernel
import proofs.«141969_j51539607552044_2_alg».proof.Proof.Gen.Kernel.Skeleton
import proofs.«141969_j51539607552044_2_alg».proof.Proof.Gen.Kernel.Launch
import proofs.«141969_j51539607552044_2_alg».proof.Proof.Gen.Kernel.Points
import proofs.«141969_j51539607552044_2_alg».proof.Proof.Gen.Kernel.Frame
import proofs.«141969_j51539607552044_2_alg».proof.Proof.Gen.KernelIdeal
import proofs.«141969_j51539607552044_2_alg».proof.Proof.Gen.KernelIdeal.Skeleton
import proofs.«141969_j51539607552044_2_alg».proof.Proof.Gen.KernelIdeal.Launch
import proofs.«141969_j51539607552044_2_alg».proof.Proof.Gen.KernelIdeal.Points
import proofs.«141969_j51539607552044_2_alg».proof.Proof.Gen.KernelIdeal.Frame
import proofs.«141969_j51539607552044_2_alg».proof.Proof.Gen.ReferenceIdeal
import proofs.«141969_j51539607552044_2_alg».proof.Proof.Gen.Pre_finite_inputs
import proofs.«141969_j51539607552044_2_alg».proof.Proof.RefRunP
import proofs.«141969_j51539607552044_2_alg».proof.Proof.RefReadP
import proofs.«141969_j51539607552044_2_alg».proof.Proof.KRun
import proofs.«141969_j51539607552044_2_alg».proof.Proof.Chain
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments the two idealized programs end with the same result: the kernel's result
    buffer holds the reference's function of the arguments. -/
theorem algebraic : Cert.algebraic_KernelIdeal_ReferenceIdeal := by
  intro m ρ m' ρ' _ hagree
  refine ⟨fun c => Cert.KernelIdeal.Gen.W15 m ρ c (Proc.devRef .tc Cert.KernelIdeal.main_v87),
    Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v119_eq, (hagree c).1, (hagree c).2.1, (hagree c).2.2.1, (hagree c).2.2.2.1,
    (hagree c).2.2.2.2.1, (hagree c).2.2.2.2.2]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
